-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S8192x128 : Shape := ⟨2, ![8192, 128]⟩
abbrev S8192x1 : Shape := ⟨2, ![8192, 1]⟩
abbrev S1024x128 : Shape := ⟨2, ![1024, 128]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩

abbrev nBuf : Space → Nat
  | .hbm => 8
  | .vmem => 5
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S8192x128, .f32⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S8192x128, .f32⟩
  | .local _ .vmem, ⟨3, _⟩ => ⟨S1024x1, .f32⟩
  | .local _ .vmem, ⟨4, _⟩ => ⟨S1024x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c1024_i32 : BitVec 32 := 1024#32
  let v7 : BitVec 32 := Scalar.muli arg0 c1024_i32
  v7
def k0_off1 (i : grid0.Coords) : Fin 2 → Nat :=
  let arg0 : BitVec 32 := BitVec.ofNat 32 (i 0).val
  let c1024_i32 : BitVec 32 := 1024#32
  let v7 : BitVec 32 := Scalar.muli arg0 c1024_i32
  let v8 : BitVec 32 := v7
  let v9 : Index := Scalar.indexCast v8
  let c0_1 : Index := 0#32
  ![v9.toNat, 0]
@[reducible] def k0_t1_loop : Scf.Loop 32 :=
  let c0_i32 : BitVec 32 := 0#32
  let c8_i32 : BitVec 32 := 8#32
  let v18 : BitVec 32 := Scalar.addi c0_i32 c8_i32
  let c1_i32 : BitVec 32 := 1#32
  ⟨c0_i32, v18, c1_i32⟩
def k0_mult2 (k0_t1 : Fin k0_t1_loop.trips) : BitVec 32 :=
  let c0_i32 : BitVec 32 := 0#32
  let c1_i32 : BitVec 32 := 1#32
  let arg4 : BitVec 32 := Scf.iv c0_i32 c1_i32 k0_t1
  let c1024_i32_10 : BitVec 32 := 1024#32
  let v31 : BitVec 32 := Scalar.muli arg4 c1024_i32_10
  v31
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c1024_i32_10 : BitVec 32 := 1024#32
  let v31 : BitVec 32 := Scalar.muli arg4 c1024_i32_10
  let v32 : BitVec 32 := v31
  let v33 : Index := Scalar.indexCast v32
  let c0_11 : Index := 0#32
  ![v33.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S16384x128_S8192x128_0_0 : S16384x128.Slices ![0, 0] S8192x128
  slices_S16384x128_S8192x128_8192_0 : S16384x128.Slices ![8192, 0] S8192x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  reduces_S1024x128_S1024 : S1024x128.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  reduces_S1024x1024_S1024 : S1024x1024.Reduces [0] S1024
  shapeCasts_S1024_S1x1024 : S1024.ShapeCasts S1x1024
  transposes_S1x1024_p1_0_S1024x1 : S1x1024.Transposes [1, 0] S1024x1
  inb_S1024x1_S1024x1_0_0 : ∀ a, (![0, 0] : Fin 2 → Nat) a + S1024x1.size a ≤ S1024x1.size a
  h_S1024x1 : 0 < S1024x1.numel
  reducesTo_S8192x1_S_d0_1 : S8192x1.ReducesTo [0, 1] S_
  h_S_ : 0 < S_.numel
  dot_S1024x128_S1024x128_S1024x1024_1_1_0_0_n_n_wf : DotDims.WF S1024x128 S1024x128 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S8192x128.size a
  k0_t1_ok : k0_t1_loop.OK
  k0_mult2_dvd : ∀ k0_t1 : Fin k0_t1_loop.trips, 1024 ∣ (k0_mult2 k0_t1).toNat
  k0_off2_inb : ∀ k0_t1 : Fin k0_t1_loop.trips, ∀ a, (k0_off2 k0_t1) a + S1024x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S8192x128 : Shape := ⟨2, ![8192, 128]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 42
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x128, .f32⟩
  | .hbm, ⟨9, _⟩ => ⟨S_, .f32⟩
  | .hbm, ⟨10, _⟩ => ⟨S8192, .f32⟩
  | .hbm, ⟨11, _⟩ => ⟨S8192x128, .f32⟩
  | .hbm, ⟨12, _⟩ => ⟨S_, .f32⟩
  | .hbm, ⟨13, _⟩ => ⟨S8192, .f32⟩
  | .hbm, ⟨14, _⟩ => ⟨S128x8192, .f32⟩
  | .hbm, ⟨15, _⟩ => ⟨S8192x8192, .f32⟩
  | .hbm, ⟨16, _⟩ => ⟨S8192x1, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_call1_cst : Ref sig .tc := ⟨.hbm, 35, rfl⟩
abbrev main_call1_v0 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  slices_S16384x128_S8192x128_0_0 : S16384x128.Slices ![0, 0] S8192x128
  slices_S16384x128_S8192x128_8192_0 : S16384x128.Slices ![8192, 0] S8192x128
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelRun.lean ====
/-
  What one grid point of the kernel leaves in its output block, as a term of the point's two input blocks.

  The body loads its tile of anchor rows, the matching diagonal tile of the resident positive array, then sweeps
  the resident array chunk by chunk in a counted loop that carries one row of running minima, and stores one
  column. The loop's carried value after `n` trips is the recursion `sweep` below: the initial row, then one
  application of the loop body's arithmetic per chunk. The stored column is the body's closing arithmetic of the
  anchor tile, the diagonal tile and the carried row after the last trip.
-/
import proofs.«177420_j30717606101531_2_alg».proof.Proof.Gen.KernelIdeal.Frame
import Idealize.ShloMosaic.Lib.Pipeline.Value
import Idealize.ShloMosaic.Lib.Tactic

noncomputable section

open Idealize.ShloMosaic Idealize.ShloMosaic.TcCoe Idealize.ShloMosaic.Tactic Idealize.SL.Sem

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- Chunk `k` of the resident array: its rows `1024 k … 1024 k + 1023`. -/
def chunk (x1 : Vec F S8192x128 .f32) (k : Fin k0_t1_loop.trips) : Vec F S1024x128 .f32 :=
  View.ld x1 (Rect.unit (s := S8192x128) (k0_off2 k) S1024x128.size (k0_off2_inb k))

/-- The diagonal tile of the resident array at grid point `i`: its rows `1024 i … 1024 i + 1023`. -/
def diag (x1 : Vec F S8192x128 .f32) (i : grid0.Coords) : Vec F S1024x128 .f32 :=
  View.ld x1 (Rect.unit (s := S8192x128) (k0_off1 i) S1024x128.size (k0_off1_inb i))

/-- The carried row before trip `n`: from `init`, one application of the loop body's arithmetic per chunk. -/
def sweep (x0 : Vec F S1024x128 .f32) (x1 : Vec F S8192x128 .f32) (init : FVec F S1x1024 .f32) : ℕ → FVec F S1x1024 .f32
  | 0 => init
  | n + 1 => if h : n < k0_t1_loop.trips then k0_pay3 x0 (sweep x0 x1 init n) (chunk x1 ⟨n, h⟩) else sweep x0 x1 init n

/-- The loop's carried value, as the run found it trip by trip, is `sweep`. -/
theorem st_eq_sweep (𝒱 : Variants) (c : Dev nD) (bd : Option 𝒱.V) (i : grid0.Coords) (arg1 : Memref sig .tc .vmem S1024x128 .f32) (harg1 : arg1.IsWhole) (arg2 : Memref sig .tc .vmem S8192x128 .f32) (harg2 : arg2.IsWhole) (arg3 : Memref sig .tc .vmem S1024x1 .f32) (harg3 : arg3.IsWhole)
    (x0 : Vec F S1024x128 .f32) (x1 : Vec F S8192x128 .f32) (init : FVec F S1x1024 .f32) (n : ℕ) :
    st_k0_t1 (F := F) 𝒱 c bd i arg1 harg1 arg2 harg2 arg3 harg3 x0 (harg2.unread x1) init n = sweep x0 x1 init n := by
  induction n with
  | zero => rfl
  | succ n ih =>
    rw [st_k0_t1.eq_2, ih]
    unfold st_k0_t1Step
    show _ = if h : n < k0_t1_loop.trips then k0_pay3 x0 (sweep x0 x1 init n) (chunk x1 ⟨n, h⟩) else sweep x0 x1 init n
    by_cases h : n < k0_t1_loop.trips
    · rw [dif_pos h, dif_pos h]
      unfold tripR_k0_t1 trip_k0_t1
      dsimp only
      unfold chunk
      simp only [View.readAt_eq_ld, harg2.read_unread]
    · rw [dif_neg h, dif_neg h]

/-- What the body leaves in the output block: its closing arithmetic of the anchor tile, the diagonal tile of the
    resident array, and the carried row after the last trip. -/
theorem out_eq (c : Dev nD) (i : grid0.Coords) (arg1 : Memref sig .tc .vmem S1024x128 .f32) (harg1 : arg1.IsWhole) (arg2 : Memref sig .tc .vmem S8192x128 .f32) (harg2 : arg2.IsWhole) (arg3 : Memref sig .tc .vmem S1024x1 .f32) (harg3 : arg3.IsWhole)
    (x0 : Vec F S1024x128 .f32) (x1 : Vec F S8192x128 .f32) :
    out0_A_2 c i arg1 harg1 arg2 harg2 arg3 harg3 x0 x1
      = k0_pay4 x0 (diag x1 i) (sweep x0 x1 (k0_pay2 (F := F)) k0_t1_loop.trips) := by
  unfold out0_A_2
  rw [View.read_writes_eq_canon _ _ _ (cover0_A_2 c i arg1 harg1 arg2 harg2 arg3 harg3 x0 x1)]
  unfold kernelRun0_A
  dsimp only
  rw [View.canon_unit_zero hz]
  unfold diag
  simp only [View.readAt_eq_ld, harg1.read_unread, harg2.read_unread, View.ld_unit_zero (S := S1024x128) hz, st_eq_sweep]

end Cert.KernelIdeal.Body

end
-- ==== Proof.KernelArray.lean ====
/-
  The array the kernel's launch leaves, and the program's result, as functions of the argument.

  The grid has eight points; point `t` reads rows `1024 t … 1024 t + 1023` of the anchor array, the whole positive
  array (resident), and writes rows `1024 t … 1024 t + 1023` of the one-column result. So entry `r` of the result
  depends on the anchor tile `r / 1024`, the same tile of the positive array (its diagonal tile), and the whole
  positive array through the sweep; it is entry `r % 1024` of what that point stores (`cell`). The eight blocks
  tile the result array, so after the launch the array is the one function `wholeColumn` of the two arrays.
  The host lines after the launch sum that column and divide by the row count.
-/
import proofs.«177420_j30717606101531_2_alg».proof.Proof.KernelRun
import Idealize.ShloMosaic.Lib.ValueIdx
import Idealize.ShloMosaic.Lib.StableHlo.Run

set_option maxRecDepth 16384

noncomputable section

open Idealize.ShloMosaic Idealize.ShloMosaic.TcCoe Idealize.ShloMosaic.Tactic Idealize.SL.Sem Idealize.ShloMosaic.ValueIdx
open Idealize.ShloMosaic.Pipeline (Dat)

namespace Cert.KernelIdeal.Body

open Cert.KernelIdeal Cert.KernelIdeal.Gen

variable {F : FTy → Type} [FloatOps F]

/-- Tile `T` of an [8192, 128] array: its rows `1024 T … 1024 T + 1023`. -/
def tile (A : S8192x128.Idx → Elt F .f32) (T : Fin 8) : Vec F S1024x128 .f32 := fun y =>
  A (ix2 (⟨1024 * T.val + (y 0).val, by have := T.isLt; have h : (y 0).val < 1024 := (y 0).isLt; omega⟩ : Fin 8192)
    (⟨(y 1).val, (y 1).isLt⟩ : Fin 128))

/-- Entry `p` of the column that the point of tile `T` stores. -/
def cell (A P : S8192x128.Idx → Elt F .f32) (T : Fin 8) (p : Fin 1024) : Elt F .f32 :=
  k0_pay4 (tile A T) (tile P T) (sweep (tile A T) P (k0_pay2 (F := F)) k0_t1_loop.trips) (ix2 p (0 : Fin 1))

/-- The result column as one function of the two arrays: entry `r` is entry `r % 1024` of tile `r / 1024`'s column. -/
def wholeColumn (A P : S8192x128.Idx → Elt F .f32) : S8192x1.Idx → Elt F .f32 := fun i =>
  cell A P ⟨(i 0).val / 1024, by have h : (i 0).val < 8192 := (i 0).isLt; omega⟩ ⟨(i 0).val % 1024, Nat.mod_lt _ (by decide)⟩

variable (m : (ℓ : Loc nD τ sig) → Buf (Elt F) ℓ) (ρ : Dev nD → PrngReg)

/-- The printed index maps over the grid: the anchor and result blocks move with the point, the positive array's stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ ((grid0.coords t) 0).val = t.val :=
  (by decide +kernel : ∀ t : Fin grid0.N, _)

/-- The anchor block at point `t` is tile `t` of the anchor array. -/
theorem iblk0_eq (c : Dev nD) (t : Fin cfg0.N) :
    (iblk m c 0 t : Vec F S1024x128 .f32) = tile (V m c main_v0) (t.cast N_0) := by
  obtain ⟨e0, e1, -⟩ := idx_facts t
  funext y
  unfold iblk tile
  rw [View.read_apply]
  show V m c main_v0 _ = V m c main_v0 _
  refine congrArg (V m c main_v0) ?_
  funext a; apply Fin.ext
  match a with
  | ⟨0, _⟩ => show win0_0.index t (0 : Fin 2) * 1024 + 1 * (y 0).val = 1024 * t.val + (y 0).val; rw [e0]; omega
  | ⟨1, _⟩ => show win0_0.index t (1 : Fin 2) * 128 + 1 * (y 1).val = (y 1).val; rw [e1]; omega

/-- The positive array's block at every point is the whole array. -/
theorem iblk1_eq (c : Dev nD) (t : Fin cfg0.N) :
    (iblk m c 1 t : Vec F S8192x128 .f32) = (V m c main_v1 : S8192x128.Idx → Elt F .f32) := by
  obtain ⟨-, -, e0, e1, -⟩ := idx_facts t
  funext y
  unfold iblk
  rw [View.read_apply]
  show V m c main_v1 _ = V m c main_v1 _
  refine congrArg (V m c main_v1) ?_
  funext a; apply Fin.ext
  match a with
  | ⟨0, _⟩ => show win0_1.index t (0 : Fin 2) * 8192 + 1 * (y 0).val = (y 0).val; rw [e0]; omega
  | ⟨1, _⟩ => show win0_1.index t (1 : Fin 2) * 128 + 1 * (y 1).val = (y 1).val; rw [e1]; omega

/-- The diagonal tile the body loads at point `t` is tile `t` of the positive array. -/
theorem diag_eq (X : S8192x128.Idx → Elt F .f32) (t : Fin cfg0.N) :
    diag (F := F) X (grid0.coords t) = tile X (t.cast N_0) := by
  obtain ⟨-, -, -, -, -, -, eg⟩ := idx_facts t
  funext y
  unfold diag tile
  show X _ = X _
  refine congrArg X ?_
  funext a; apply Fin.ext
  match a with
  | ⟨0, _⟩ => show (k0_off1 (grid0.coords t)) 0 + 1 * (y 0).val = 1024 * t.val + (y 0).val; rw [k0_off1_eq]; show 1024 * ((grid0.coords t) 0).val + 1 * (y 0).val = _; rw [eg]; omega
  | ⟨1, _⟩ => show (k0_off1 (grid0.coords t)) 1 + 1 * (y 1).val = (y 1).val; rw [k0_off1_eq]; show 0 + 1 * (y 1).val = _; omega

/-- The sweep makes eight trips. -/
theorem trips_eq : k0_t1_loop.trips = 8 := by decide

/-- The chunk the body loads on trip `k` is tile `k` of the resident array. -/
theorem chunk_eq (X : S8192x128.Idx → Elt F .f32) (k : Fin k0_t1_loop.trips) :
    chunk (F := F) X k = tile X (k.cast trips_eq) := by
  funext y
  unfold chunk tile
  show X _ = X _
  refine congrArg X ?_
  funext a; apply Fin.ext
  match a with
  | ⟨0, _⟩ => show (k0_off2 k) 0 + 1 * (y 0).val = 1024 * k.val + (y 0).val; rw [k0_off2_eq]; show 1024 * k.val + 1 * (y 0).val = _; omega
  | ⟨1, _⟩ => show (k0_off2 k) 1 + 1 * (y 1).val = (y 1).val; rw [k0_off2_eq]; show 0 + 1 * (y 1).val = _; omega

/-- Row `p` of tile `T` is row `1024 T + p` of the array. -/
theorem tile_apply (A : S8192x128.Idx → Elt F .f32) (T : Fin 8) (p : Fin 1024) (k : Fin 128) :
    tile A T (ix2 p k) = A (ix2 (⟨1024 * T.val + p.val, by have := T.isLt; have := p.isLt; omega⟩ : Fin 8192) k) := rfl

/-- What point `t` writes back is block `t` of `wholeColumn` of the two arrays as the launch finds them. -/
theorem flushed_eq (c : Dev nD) (t : Fin cfg0.N) :
    (dats m 0 c).flushed 2 t
      = ((cfg0.win 2).blk t).view.read (Elt F) (wholeColumn (V m c main_v0) (V m c main_v1)) := by
  obtain ⟨-, -, -, -, e0, e1, -⟩ := idx_facts t
  show (cfg0.win 2).cut (grid0.coords t) ((dats m 0 c).after 2 t) = _
  rw [after0_2]
  unfold outsAt0
  rw [out_eq, iblk0_eq, iblk1_eq, diag_eq]
  funext j
  rw [View.read_apply]
  have hj0 : (j 0).val < 1024 := (j 0).isLt
  have hj1 : (j 1).val < 1 := (j 1).isLt
  have ht : t.val < 8 := (t.cast N_0).isLt
  have h0 : ((((cfg0.win 2).blk t).view.emb j) 0).val = t.val * 1024 + (j 0).val := by
    show win0_2.index t (0 : Fin 2) * 1024 + 1 * (j 0).val = _; rw [e0]; omega
  show k0_pay4 _ _ _ j = wholeColumn (V m c main_v0) (V m c main_v1) (((cfg0.win 2).blk t).view.emb j)
  unfold wholeColumn cell
  have hT : (⟨((((cfg0.win 2).blk t).view.emb j) 0).val / 1024, by rw [h0]; omega⟩ : Fin 8) = t.cast N_0 :=
    Fin.ext (by show ((((cfg0.win 2).blk t).view.emb j) 0).val / 1024 = t.val; rw [h0]; omega)
  have hp : (ix2 (⟨((((cfg0.win 2).blk t).view.emb j) 0).val % 1024, Nat.mod_lt _ (by decide)⟩ : Fin 1024) (0 : Fin 1) : S1024x1.Idx) = j := by
    funext a; apply Fin.ext
    match a with
    | ⟨0, _⟩ => show ((((cfg0.win 2).blk t).view.emb j) 0).val % 1024 = (j 0).val; rw [h0]; omega
    | ⟨1, _⟩ => show 0 = (j 1).val; omega
  rw [hT, hp]

/-- An index of the result array is in point `t`'s block iff each coordinate is in the block's range. -/
theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v2).slice (win0_2.rect t)).set ↔ _
  rw [View.set_slice_whole, Rect.mem_set_unit]
  exact Iff.rfl

/-- Row `r` of the result lies in the block of point `r / 1024`. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  let t : Fin cfg0.N := ⟨(i 0).val / 1024, by rw [show cfg0.N = 8 from N_0]; omega⟩
  obtain ⟨-, -, -, -, e0, e1, -⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; rw [e0]; show (i 0).val / 1024 * 1024 ≤ (i 0).val ∧ (i 0).val < (i 0).val / 1024 * 1024 + 1024; omega
  | ⟨1, _⟩ => show win0_2.index t (1 : Fin 2) * 1 ≤ (i 1).val ∧ (i 1).val < win0_2.index t (1 : Fin 2) * 1 + 1; rw [e1]; omega

/-- The result array after the launch. -/
theorem final (c : Dev nD) : (dats m 0 c).arrAt 2 cfg0.N = wholeColumn (V m c main_v0) (V m c main_v1) :=
  (dats m 0 c).arrAt_eq_of_cover 2 _ (fun t _ => flushed_eq m c t) cover

/-- The host lines before the launch: the anchor array is the argument's first 8192 rows, -/
theorem V_anchor (c : Dev nD) : (V m c main_v0 : S8192x128.Idx → Elt F .f32)
    = extractStridedSlice S8192x128 ![0, 0] (m ((c : Thread nD τ).loc main_arg0)) slices_S16384x128_S8192x128_0_0 := by
  show StableHlo.after hostOps0 (fun b => m (c, b)) (Proc.devRef .tc main_v0) = _
  after_results

/-- the positive array its last 8192 rows. -/
theorem V_positive (c : Dev nD) : (V m c main_v1 : S8192x128.Idx → Elt F .f32)
    = extractStridedSlice S8192x128 ![8192, 0] (m ((c : Thread nD τ).loc main_arg0)) slices_S16384x128_S8192x128_8192_0 := by
  show StableHlo.after hostOps0 (fun b => m (c, b)) (Proc.devRef .tc main_v1) = _
  after_results

/-- The host lines after the launch: the column summed over all its entries from zero, divided by the row count. -/
def meanOf (Y : S8192x1.Idx → Elt F .f32) : S_.Idx → Elt F .f32 :=
  Host.divf (Host.reduceAdd (F := F) Y (constant (F := F) S_ .f32 0x00000000#32) reducesTo_S8192x1_S_d0_1 h_S_) (constant (F := F) S_ .f32 0x46000000#32)

/-- The program's result: the mean of `wholeColumn` of the argument's two halves. -/
theorem tail_eq (c : Dev nD) :
    Pipeline.afterTail₀ cfgs (dats m) 0 (V0 m) [hostOps1] c main_v4
      = meanOf (wholeColumn
          (extractStridedSlice S8192x128 ![0, 0] (m ((c : Thread nD τ).loc main_arg0)) slices_S16384x128_S8192x128_0_0)
          (extractStridedSlice S8192x128 ![8192, 0] (m ((c : Thread nD τ).loc main_arg0)) slices_S16384x128_S8192x128_8192_0)) := by
  unfold Pipeline.afterTail₀
  show StableHlo.after hostOps1 _ (Proc.devRef .tc main_v4) = _
  after_results
  have e := (Pipeline.withArrays_arr spec0 launch0.win.arr_inj c (V0 m c) (fun w => (dats m 0 c).arrAt w cfg0.N) 2).trans (final m c)
  rw [V_anchor, V_positive] at e
  unfold meanOf
  rw [← e]

/-- The run, read: the program's result at that mean, the argument unchanged. -/
theorem run : θ_run defs (onTc (τ := τ) (main (F := F))) ⟨m, fun _ => 0, ρ⟩ fun r => ∀ c : Dev nD,
      r.2.mem ((c.tc : Thread nD τ).loc main_v4)
        = meanOf (wholeColumn
          (extractStridedSlice S8192x128 ![0, 0] (m ((c.tc : Thread nD τ).loc main_arg0)) slices_S16384x128_S8192x128_0_0)
          (extractStridedSlice S8192x128 ![8192, 0] (m ((c.tc : Thread nD τ).loc main_arg0)) slices_S16384x128_S8192x128_8192_0))
      ∧ r.2.mem ((c.tc : Thread nD τ).loc main_arg0) = m ((c.tc : Thread nD τ).loc main_arg0) :=
  (θ_run defs _ _).mono (fun _ h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c)⟩)
    (run_main m ρ)

end Cert.KernelIdeal.Body

end
-- ==== Proof.LibMinReduce.lean ====
/-
  Minima of a matrix along an axis, at the exact instance and for any extents.

  On the extended reals a minimum-reduction is the fold of `min` from the starting value over the coordinates of the
  reduced axis. Read at an index written by coordinates: the vector unit's minimum over the FIRST axis at a column
  (what a `min` over rows that keeps one row prints), the vector unit's and the host's minimum over the LAST axis at
  a row. The reduced index with a coordinate put back on the dropped first axis is (coordinate, column).
-/
import Idealize.ShloMosaic.Lib.ValueLayout
import Idealize.ShloMosaic.Lib.IdealHost
import Idealize.ShloMosaic.PureOps.Ideal.Laws

noncomputable section

namespace Cert.LibMinReduce

open Idealize.ShloMosaic Idealize.ShloMosaic.ValueIdx
open scoped BigOperators

/-- A minimum-reduction of the vector unit over one axis, at the exact instance: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Column `c` with the coordinate `k` put back on the dropped first axis is the matrix index `(k, c)`. -/
theorem lift_firstAxis {a b : ℕ} (h : (⟨2, ![a, b]⟩ : Shape).Reduces [0] ⟨1, ![b]⟩) (c : Fin b) (k : Fin a) :
    h.lift (ix1 c) k = ix2 k c := by
  funext d
  apply Fin.ext
  show h.liftVal (ix1 c) k.val d = _
  unfold Shape.Reduces.liftVal
  match d with
  | ⟨0, _⟩ => exact dif_pos (show (0 : ℕ) = 0 from rfl)
  | ⟨1, _⟩ => exact (dif_neg (show ¬((1 : ℕ) = 0) by omega)).trans (dif_neg (show ¬((1 : ℕ) < 0) by omega))

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's minimum of a matrix over its FIRST axis, at column `c`: the fold of `min` over the column's
    entries, from the accumulator's value. -/
theorem colMin_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (c : Fin b) :
    multiReduction .minimumf [0] ⟨1, ![b]⟩ src acc h hφ hacc (ix1 c)
      = (Finset.univ : Finset (Fin a)).fold min (Ideal.ofBits φ acc) (fun k => src (ix2 k c)) :=
  (multiReduction_minimumf_single src acc h hφ hacc (ix1 c)).trans
    (congrArg (fun f => (Finset.univ : Finset (Fin a)).fold min (Ideal.ofBits φ acc) f)
      (funext fun k => congrArg src (lift_firstAxis h c k)))

/-- The vector unit's minimum of a matrix over its LAST axis, at row `p`. -/
theorem rowMin_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun k => src (ix2 p k)) :=
  (multiReduction_minimumf_single src acc h hφ hacc (ix1 p)).trans
    (congrArg (fun f => (Finset.univ : Finset (Fin b)).fold min (Ideal.ofBits φ acc) f)
      (funext fun k => congrArg src (lift_lastAxis h p k)))

/-- The host's minimum of a matrix over its LAST axis, at row `p`: the fold of `min` over the row's entries, from the
    initial value. -/
theorem hostRowMin_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.minimumf (F := Ideal) (φ := φ)) x init h' hu (ix1 p)
      = (Finset.univ : Finset (Fin b)).fold min (init (Shape.Idx.first hu)) (fun k => x (ix2 p k)) :=
  (Host.reduce_eq_fold_single (FloatOps.minimumf (F := Ideal) (φ := φ)) x init h' h hu (ix1 p)).trans
    (congrArg (fun f => (Finset.univ : Finset (Fin b)).fold min (init (Shape.Idx.first hu)) f)
      (funext fun k => congrArg x (lift_lastAxis h p k)))

/-- The host's minimum of a matrix over its FIRST axis, at column `c`. -/
theorem hostColMin_apply {φ : FTy} {a b : ℕ} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.minimumf (F := Ideal) (φ := φ)) x init h' hu (ix1 c)
      = (Finset.univ : Finset (Fin a)).fold min (init (Shape.Idx.first hu)) (fun k => x (ix2 k c)) :=
  (Host.reduce_eq_fold_single (FloatOps.minimumf (F := Ideal) (φ := φ)) x init h' h hu (ix1 c)).trans
    (congrArg (fun f => (Finset.univ : Finset (Fin a)).fold min (init (Shape.Idx.first hu)) f)
      (funext fun k => congrArg x (lift_firstAxis h c k)))

end Cert.LibMinReduce

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.NearestMath.lean ====
/-
  The one law that joins the two programs: a clamp-and-root may be taken before or after a minimum.

  For a fixed row the reference takes, over all candidates j, the minimum of  √(max((a + p_j) − 2 c_j, 0)),
  while the kernel takes the minimum of  p_j − 2 c_j  first, adds a, clamps at 0 and takes one root. The map
  x ↦ √(max(x + a, 0)) is monotone on the extended reals and sends +∞ to +∞ (a real), so it commutes with a
  minimum over any finite family started from +∞; and for real a, p_j, c_j the two arrangements of the sum
  agree. The running minimum kept chunk by chunk is the minimum over all rows seen so far.
-/
import Idealize.ShloMosaic.PureOps.Ideal
import Mathlib.Data.EReal.Operations
import Mathlib.Order.Monotone.Basic
import Mathlib.Data.Finset.Fold
import Mathlib.Data.Finset.Lattice.Fold
import Mathlib.Tactic.Ring
import Mathlib.Tactic.Linarith

noncomputable section

namespace Cert.NearestMath

open Idealize.ShloMosaic

/-- The square root of the exact instance is monotone on the extended reals (−∞ and the negatives go to −∞). -/
theorem sqrt_mono : Monotone Ideal.sqrt := by
  intro x y hxy
  induction x using EReal.rec with
  | bot => exact bot_le
  | top =>
    have : y = ⊤ := top_le_iff.mp hxy
    subst this; exact le_rfl
  | coe r =>
    induction y using EReal.rec with
    | bot => exact absurd hxy (by simp)
    | top => exact le_top
    | coe s =>
      have hrs : r ≤ s := EReal.coe_le_coe_iff.mp hxy
      rw [Ideal.sqrt_coe, Ideal.sqrt_coe]
      by_cases h1 : r < 0
      · rw [if_pos h1]; exact bot_le
      · rw [if_neg h1, if_neg (by linarith)]
        exact EReal.coe_le_coe_iff.mpr (Real.sqrt_le_sqrt hrs)

/-- Add `a`, clamp at zero, take the root. -/
def clampRoot (a x : EReal) : EReal := Ideal.sqrt (max (x + a) 0)

theorem clampRoot_mono (a : EReal) : Monotone (clampRoot a) := fun _ _ h =>
  sqrt_mono (max_le_max (add_le_add_left h a) le_rfl)

theorem clampRoot_top (a : ℝ) : clampRoot (a : EReal) ⊤ = ⊤ := by
  unfold clampRoot
  rw [EReal.top_add_coe, max_eq_left le_top]
  rfl

/-- A monotone map that fixes +∞ commutes with a minimum started from +∞ over a finite family. -/
theorem map_fold_min {ι : Type*} (s : Finset ι) (g : EReal → EReal) (hg : Monotone g) (htop : g ⊤ = ⊤) (f : ι → EReal) :
    g (s.fold min ⊤ f) = s.fold min ⊤ (fun j => g (f j)) := by
  classical
  induction s using Finset.induction_on with
  | empty => simpa using htop
  | insert a s ha ih => rw [Finset.fold_insert ha, Finset.fold_insert ha, hg.map_min, ih]

/-- For reals the two arrangements of the squared distance agree: (p − t·c) + a = (a + p) − t·c. -/
theorem rearrange (a p c t : ℝ) :
    ((p : EReal) - (t : EReal) * (c : EReal)) + (a : EReal) = ((a : EReal) + (p : EReal)) - (t : EReal) * (c : EReal) := by
  rw [← EReal.coe_mul, ← EReal.coe_sub, ← EReal.coe_add, ← EReal.coe_add, ← EReal.coe_sub]
  congr 1; ring

/-- The law: one clamp-and-root after the minimum of  p_j − t c_j  is the minimum of the clamped roots of
    (a + p_j) − t c_j, for real a, p_j, c_j, t. -/
theorem clampRoot_fold_min {ι : Type*} (s : Finset ι) (a t : ℝ) (p c : ι → ℝ) :
    clampRoot (a : EReal) (s.fold min ⊤ (fun j => ((p j : ℝ) : EReal) - (t : EReal) * ((c j : ℝ) : EReal)))
      = s.fold min ⊤ (fun j => Ideal.sqrt (max ((((a : ℝ) : EReal) + ((p j : ℝ) : EReal)) - (t : EReal) * ((c j : ℝ) : EReal)) 0)) := by
  rw [map_fold_min s _ (clampRoot_mono _) (clampRoot_top a)]
  refine congrArg (fun f => Finset.fold min ⊤ f s) (funext fun j => ?_)
  unfold clampRoot
  rw [rearrange]

/-- A minimum from +∞ as a lattice infimum. -/
theorem fold_min_eq_inf {ι : Type*} (s : Finset ι) (f : ι → EReal) : s.fold min ⊤ f = s.inf f := by
  classical
  induction s using Finset.induction_on with
  | empty => simp
  | insert a s ha ih => rw [Finset.fold_insert ha, Finset.inf_insert, ih]

/-- The rows below `B (n + 1)` are the rows below `B n` together with the next `B` rows: the running minimum's step. -/
theorem inf_below_succ {N B : ℕ} (n : ℕ) (hn : B * (n + 1) ≤ N) (f : Fin N → EReal) :
    (Finset.univ.filter fun q : Fin N => q.val < B * (n + 1)).inf f
      = min ((Finset.univ.filter fun q : Fin N => q.val < B * n).inf f)
          ((Finset.univ : Finset (Fin B)).inf fun j => f ⟨B * n + j.val, by have := j.isLt; rw [Nat.mul_succ] at hn; omega⟩) := by
  classical
  have hset : (Finset.univ.filter fun q : Fin N => q.val < B * (n + 1))
      = (Finset.univ.filter fun q : Fin N => q.val < B * n)
        ∪ (Finset.univ : Finset (Fin B)).image (fun j => (⟨B * n + j.val, by have := j.isLt; rw [Nat.mul_succ] at hn; omega⟩ : Fin N)) := by
    ext q
    simp only [Finset.mem_filter, Finset.mem_univ, true_and, Finset.mem_union, Finset.mem_image]
    constructor
    · intro hq
      by_cases h : q.val < B * n
      · exact Or.inl h
      · refine Or.inr ⟨⟨q.val - B * n, by rw [Nat.mul_succ] at hq; omega⟩, Fin.ext ?_⟩
        show B * n + (q.val - B * n) = q.val
        omega
    · rintro (h | ⟨j, rfl⟩)
      · rw [Nat.mul_succ]; omega
      · show B * n + j.val < B * (n + 1)
        have := j.isLt; rw [Nat.mul_succ]; omega
  rw [hset, Finset.inf_union, Finset.inf_image]
  rfl

theorem inf_below_zero {N B : ℕ} (f : Fin N → EReal) :
    (Finset.univ.filter fun q : Fin N => q.val < B * 0).inf f = ⊤ := by
  rw [Finset.filter_false_of_mem (fun q _ => by omega)]
  rfl

theorem inf_below_all {N B : ℕ} (n : ℕ) (hn : B * n = N) (f : Fin N → EReal) :
    (Finset.univ.filter fun q : Fin N => q.val < B * n).inf f = Finset.univ.inf f := by
  rw [Finset.filter_true_of_mem (fun q _ => by have := q.isLt; omega)]

end Cert.NearestMath

end
-- ==== Proof.LibFiniteSums.lean ====
/-
  General laws for finite sums of REAL entries inside the extended reals.

  On the extended reals multiplication does not distribute over addition at the infinities, so a scale cannot be
  moved across a sum in general. For sums whose entries are all real it can: the sum of coerced reals is the coerced
  real sum, and there the ring laws apply. These are the laws behind folding a per-channel scale (a batch-norm
  scale, a gate) into the weights of a linear map, and behind packing two images side by side with block-diagonal
  weights: the off-diagonal blocks contribute 0 · (a real) = 0.
-/
import Mathlib.Data.EReal.Operations
import Mathlib.Algebra.BigOperators.Ring.Finset
import Mathlib.Algebra.BigOperators.Fin
import Mathlib.Algebra.BigOperators.Field
import Mathlib.Tactic.FinCases
import Mathlib.Tactic.Ring

noncomputable section

namespace Cert.LibFiniteSums

open scoped BigOperators

variable {ι κ : Type*}

/-- The sum of coerced reals is the coerced real sum. -/
theorem coe_sum (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of reals, inside the extended reals, is a real. -/
theorem coe_sum_mul (s : Finset ι) (x w : ι → ℝ) :
    (∑ i ∈ s, ((x i : ℝ) : EReal) * ((w i : ℝ) : EReal)) = ((∑ i ∈ s, x i * w i : ℝ) : EReal) := by
  rw [← coe_sum]; exact Finset.sum_congr rfl fun i _ => (EReal.coe_mul _ _).symm

/-- A scale applied AFTER a contraction of reals is the same contraction with the scale folded into the weights:
    (Σ_i x_i w_i) · s = Σ_i x_i (w_i s). -/
theorem sum_mul_scale (s : Finset ι) (x w : ι → ℝ) (c : ℝ) :
    (∑ i ∈ s, ((x i : ℝ) : EReal) * ((w i : ℝ) : EReal)) * ((c : ℝ) : EReal)
      = ∑ i ∈ s, ((x i : ℝ) : EReal) * (((w i : ℝ) : EReal) * ((c : ℝ) : EReal)) := by
  rw [coe_sum_mul, ← EReal.coe_mul, Finset.sum_mul]
  rw [show (∑ i ∈ s, ((x i : ℝ) : EReal) * (((w i : ℝ) : EReal) * ((c : ℝ) : EReal)))
      = ∑ i ∈ s, ((x i * (w i * c) : ℝ) : EReal) from
    Finset.sum_congr rfl fun i _ => by rw [← EReal.coe_mul, ← EReal.coe_mul], coe_sum]
  congr 1
  exact Finset.sum_congr rfl fun i _ => by ring

/-- The same with a bias added on both sides (the folded batch-norm form). -/
theorem sum_mul_scale_add (s : Finset ι) (x w : ι → ℝ) (c b : ℝ) :
    (∑ i ∈ s, ((x i : ℝ) : EReal) * ((w i : ℝ) : EReal)) * ((c : ℝ) : EReal) + ((b : ℝ) : EReal)
      = (∑ i ∈ s, ((x i : ℝ) : EReal) * (((w i : ℝ) : EReal) * ((c : ℝ) : EReal))) + ((b : ℝ) : EReal) := by
  rw [sum_mul_scale]

/-- A gate folded into a contraction: Σ_i (w_i · c · g_i) · z_i = (Σ_i (z_i g_i) w_i) · c. -/
theorem sum_gate_fold (s : Finset ι) (z g w : ι → ℝ) (c : ℝ) :
    (∑ i ∈ s, (((w i : ℝ) : EReal) * ((c : ℝ) : EReal) * ((g i : ℝ) : EReal)) * ((z i : ℝ) : EReal))
      = (∑ i ∈ s, (((z i : ℝ) : EReal) * ((g i : ℝ) : EReal)) * ((w i : ℝ) : EReal)) * ((c : ℝ) : EReal) := by
  rw [show (∑ i ∈ s, (((w i : ℝ) : EReal) * ((c : ℝ) : EReal) * ((g i : ℝ) : EReal)) * ((z i : ℝ) : EReal))
      = ∑ i ∈ s, ((w i * c * g i * z i : ℝ) : EReal) from
    Finset.sum_congr rfl fun i _ => by rw [← EReal.coe_mul, ← EReal.coe_mul, ← EReal.coe_mul], coe_sum]
  rw [show (∑ i ∈ s, (((z i : ℝ) : EReal) * ((g i : ℝ) : EReal)) * ((w i : ℝ) : EReal))
      = ∑ i ∈ s, ((z i * g i * w i : ℝ) : EReal) from
    Finset.sum_congr rfl fun i _ => by rw [← EReal.coe_mul, ← EReal.coe_mul], coe_sum, ← EReal.coe_mul, Finset.sum_mul]
  congr 1
  exact Finset.sum_congr rfl fun i _ => by ring

/-- Two images packed side by side with block-diagonal weights: contracting the pair index against the Kronecker
    delta leaves the one image's contraction. -/
theorem sum_block_diag [Fintype ι] (p : Fin 2) (x : Fin 2 → ι → ℝ) (w : ι → ℝ) :
    (∑ q : Fin 2, ∑ i : ι, ((x q i : ℝ) : EReal) * (((if q = p then (1 : ℝ) else 0 : ℝ) : EReal) * ((w i : ℝ) : EReal)))
      = ∑ i : ι, ((x p i : ℝ) : EReal) * ((w i : ℝ) : EReal) := by
  rw [show (∑ q : Fin 2, ∑ i : ι, ((x q i : ℝ) : EReal) * (((if q = p then (1 : ℝ) else 0 : ℝ) : EReal) * ((w i : ℝ) : EReal)))
      = ∑ q : Fin 2, ((∑ i : ι, x q i * ((if q = p then (1 : ℝ) else 0) * w i) : ℝ) : EReal) from
    Finset.sum_congr rfl fun q _ => by
      rw [← coe_sum]; exact Finset.sum_congr rfl fun i _ => by rw [← EReal.coe_mul, ← EReal.coe_mul]]
  rw [coe_sum, coe_sum_mul]
  congr 1
  rw [Fin.sum_univ_two]
  fin_cases p <;> simp

/-- The mean over a rectangle taken at once is the mean of the row means (all entries real):
    (Σ_h Σ_w z) / (H·W) = (Σ_h (Σ_w z) / W) / H. -/
theorem mean_of_row_means {H W : ℕ} (z : Fin H → Fin W → ℝ) (hH : (H : ℝ) ≠ 0) (hW : (W : ℝ) ≠ 0) :
    (∑ h, ∑ w, z h w) / ((H : ℝ) * (W : ℝ)) = (∑ h, (∑ w, z h w) / (W : ℝ)) / (H : ℝ) := by
  rw [← Finset.sum_div, div_div, mul_comm]

end Cert.LibFiniteSums

end
-- ==== Proof.LibFiniteDecode.lean ====
/-
  "Every entry has absolute value below +∞" read as "every entry is a real".

  A precondition that an array is finite is printed as an all-reduce by "and" of the comparison |a| < +∞ against the
  word of +∞. On the extended reals |x| < +∞ says x is neither infinity, that is, x is a real. The lemma below takes one
  such conjunct — the all-reduce equal to 1 — to "every entry of `a` is real", for an array of any shape reduced over all
  its axes.
-/
import Idealize.ShloMosaic.PureOps.Ideal
import Idealize.ShloMosaic.Lib.ReduceAll
import Idealize.ShloMosaic.Lib.ValueIdx

noncomputable section

namespace Cert.LibFiniteDecode

open Idealize.ShloMosaic Idealize.ShloMosaic.ValueIdx

/-- The scalar shape has one index. -/
instance : Subsingleton (⟨0, ![]⟩ : Shape).Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- An extended real whose absolute value is below +∞ is a real. -/
theorem real_of_abs_lt (x : EReal) (h : max x (-x) < ⊤) : ∃ r : ℝ, x = ((r : ℝ) : EReal) := by
  induction x using EReal.rec with
  | bot => simp at h
  | coe r => exact ⟨r, rfl⟩
  | top => simp at h

/-- One conjunct of a finiteness precondition: an all-reduce by "and" of the comparison |a| < +∞ that is 1 makes every
    entry of `a` a real. -/
theorem real_of_all {s : Shape} {axes : List (Fin s.rank)} (a : FVec Ideal s .f32)
    (hb : (⟨0, ![]⟩ : Shape).BroadcastsInDim s ![]) (hred : s.ReducesTo axes ⟨0, ![]⟩) (hu : 0 < (⟨0, ![]⟩ : Shape).numel)
    (e : Host.reduce IntOp.andi (cmpf .olt (Host.absf a) (broadcastInDim s ![] hb (constant ⟨0, ![]⟩ .f32 0x7F800000#32)))
      (constantI ⟨0, ![]⟩ 1 1#1) hred hu ix0 = 1#1) (i : s.Idx) : ∃ r : ℝ, a i = ((r : ℝ) : EReal) := by
  have h := Host.reduce_andi_all _ _ hred hu ix0 e i
  have h' : Ideal.cmp .olt (max (a i) (-(a i))) (Ideal.ofBits .f32 0x7F800000#32) = 1#1 := h
  rw [ofBits_inf] at h'
  refine real_of_abs_lt (a i) ?_
  unfold Ideal.cmp at h'
  by_contra hn
  simp [hn] at h'

end Cert.LibFiniteDecode

end
-- ==== Proof.Spec.lean ====
/-
  The per-row loss in the two arrangements the two programs compute it in, and their equality on real inputs.

  Row r of the anchor array A against the positive array P (both 8192 × 128):
    the positive distance      ‖a_r − p_r‖ = √ Σ_k (a_rk − p_rk)²,
    the nearest-candidate distance, which the kernel computes as
        √ max( min_j (‖p_j‖² − 2 ⟨p_j, a_r⟩) + ‖a_r‖², 0 )
    and the reference as
        min_j √ max( (‖a_r‖² + ‖p_j‖²) − 2 ⟨a_r, p_j⟩, 0 ),
    and the loss  max( (positive − nearest) + 1, 0 ).
  The clamp-and-root is monotone and fixes +∞, so it moves across the minimum; the two arrangements of the squared
  distance agree because every entry, hence every sum of products of entries, is a real.
-/
import proofs.«177420_j30717606101531_2_alg».proof.Proof.NearestMath
import proofs.«177420_j30717606101531_2_alg».proof.Proof.LibFiniteSums
import proofs.«177420_j30717606101531_2_alg».proof.Proof.LibFiniteDecode
import Idealize.ShloMosaic.Lib.ValueIdx
import Idealize.ShloMosaic.PureOps.Ideal.Laws

noncomputable section

namespace Cert.TripletSpec

open Idealize.ShloMosaic Idealize.ShloMosaic.ValueIdx Cert.NearestMath
open scoped BigOperators

/-- An 8192 × 128 array of extended reals. -/
abbrev Arr := (⟨2, ![8192, 128]⟩ : Shape).Idx → EReal

/-- ‖x_r‖². -/
def sqNorm (X : Arr) (r : Fin 8192) : EReal := ∑ k : Fin 128, X (ix2 r k) * X (ix2 r k)

/-- ‖a_r − p_r‖². -/
def diffSq (A P : Arr) (r : Fin 8192) : EReal :=
  ∑ k : Fin 128, (A (ix2 r k) - P (ix2 r k)) * (A (ix2 r k) - P (ix2 r k))

/-- The kernel's candidate term: ‖p_j‖² − 2 ⟨p_j, a_r⟩. -/
def partialSq (A P : Arr) (r j : Fin 8192) : EReal :=
  sqNorm P j - Ideal.ofBits .f32 0x40000000#32 * ∑ k : Fin 128, P (ix2 j k) * A (ix2 r k)

/-- The kernel's nearest-candidate distance: one clamp and root after the minimum. -/
def nearestK (A P : Arr) (r : Fin 8192) : EReal :=
  Ideal.sqrt (max ((Finset.univ : Finset (Fin 8192)).fold min (Ideal.ofBits .f32 0x7F800000#32) (fun j => partialSq A P r j) + sqNorm A r)
    (Ideal.ofBits .f32 0x00000000#32))

/-- The kernel's loss of row r. -/
def lossK (A P : Arr) (r : Fin 8192) : EReal :=
  max ((Ideal.sqrt (diffSq A P r) - nearestK A P r) + Ideal.ofBits .f32 0x3F800000#32) (Ideal.ofBits .f32 0x00000000#32)

/-- The reference's squared distance: (‖a_r‖² + ‖p_j‖²) − 2 ⟨a_r, p_j⟩, each squared norm summed from the zero word. -/
def fullSq (A P : Arr) (r j : Fin 8192) : EReal :=
  ((Ideal.ofBits .f32 0x00000000#32 + sqNorm A r) + (Ideal.ofBits .f32 0x00000000#32 + sqNorm P j))
    - Ideal.ofBits .f32 0x40000000#32 * ∑ k : Fin 128, A (ix2 r k) * P (ix2 j k)

/-- The reference's nearest-candidate distance: the minimum of the clamped roots. -/
def nearestR (A P : Arr) (r : Fin 8192) : EReal :=
  (Finset.univ : Finset (Fin 8192)).fold min (Ideal.ofBits .f32 0x7F800000#32)
    (fun j => Ideal.sqrt (max (fullSq A P r j) (Ideal.ofBits .f32 0x00000000#32)))

/-- The reference's loss of row r. -/
def lossR (A P : Arr) (r : Fin 8192) : EReal :=
  max ((Ideal.sqrt (Ideal.ofBits .f32 0x00000000#32 + diffSq A P r) - nearestR A P r) + Ideal.ofBits .f32 0x3F800000#32)
    (Ideal.ofBits .f32 0x00000000#32)

/-- The word of 2.0 denotes the real 2. -/
theorem two_word : Ideal.ofBits .f32 0x40000000#32 = ((2 : ℝ) : EReal) := by
  simp [Ideal.ofBits, Ideal.ieee]
  first
  | (rw [← EReal.coe_mul]; congr 1; norm_num)
  | (norm_cast; norm_num)

/-- On arrays of reals the two nearest-candidate distances agree. -/
theorem nearest_eq (A P : Arr) (hA : ∀ i, ∃ x : ℝ, A i = (x : EReal)) (hP : ∀ i, ∃ x : ℝ, P i = (x : EReal)) (r : Fin 8192) :
    nearestK A P r = nearestR A P r := by
  choose a ha using hA
  choose p hp using hP
  have hsqA : sqNorm A r = ((∑ k : Fin 128, a (ix2 r k) * a (ix2 r k) : ℝ) : EReal) := by
    unfold sqNorm; simp only [ha]; exact Cert.LibFiniteSums.coe_sum_mul _ _ _
  have hsqP : ∀ j, sqNorm P j = ((∑ k : Fin 128, p (ix2 j k) * p (ix2 j k) : ℝ) : EReal) := fun j => by
    unfold sqNorm; simp only [hp]; exact Cert.LibFiniteSums.coe_sum_mul _ _ _
  have hdotK : ∀ j, (∑ k : Fin 128, P (ix2 j k) * A (ix2 r k)) = ((∑ k : Fin 128, p (ix2 j k) * a (ix2 r k) : ℝ) : EReal) := fun j => by
    simp only [ha, hp]; exact Cert.LibFiniteSums.coe_sum_mul _ _ _
  have hdotR : ∀ j, (∑ k : Fin 128, A (ix2 r k) * P (ix2 j k)) = ((∑ k : Fin 128, p (ix2 j k) * a (ix2 r k) : ℝ) : EReal) := fun j => by
    rw [← hdotK j]; exact Finset.sum_congr rfl fun k _ => mul_comm _ _
  unfold nearestK nearestR
  have hK : (fun j => partialSq A P r j)
      = fun j => ((∑ k : Fin 128, p (ix2 j k) * p (ix2 j k) : ℝ) : EReal) - ((2 : ℝ) : EReal) * ((∑ k : Fin 128, p (ix2 j k) * a (ix2 r k) : ℝ) : EReal) :=
    funext fun j => by unfold partialSq; rw [hsqP j, hdotK j, two_word]
  have hR : (fun j => Ideal.sqrt (max (fullSq A P r j) (Ideal.ofBits .f32 0x00000000#32)))
      = fun j => Ideal.sqrt (max ((((∑ k : Fin 128, a (ix2 r k) * a (ix2 r k) : ℝ) : EReal) + ((∑ k : Fin 128, p (ix2 j k) * p (ix2 j k) : ℝ) : EReal))
          - ((2 : ℝ) : EReal) * ((∑ k : Fin 128, p (ix2 j k) * a (ix2 r k) : ℝ) : EReal)) 0) :=
    funext fun j => by unfold fullSq; rw [hsqA, hsqP j, hdotR j, two_word, Ideal.ofBits_zero_f32, zero_add, zero_add]
  rw [hK, hR, hsqA, Cert.LibFiniteDecode.ofBits_inf, Ideal.ofBits_zero_f32]
  exact clampRoot_fold_min Finset.univ _ 2 _ _

/-- On arrays of reals the two losses agree. -/
theorem loss_eq (A P : Arr) (hA : ∀ i, ∃ x : ℝ, A i = (x : EReal)) (hP : ∀ i, ∃ x : ℝ, P i = (x : EReal)) (r : Fin 8192) :
    lossK A P r = lossR A P r := by
  unfold lossK lossR
  rw [nearest_eq A P hA hP r, Ideal.ofBits_zero_f32, zero_add]

end Cert.TripletSpec

end
-- ==== Proof.KernelValue.lean ====
/-
  The kernel's stored column, entry by entry, on the extended reals.

  The closing arithmetic at entry p: the root of the row's squared difference, minus the root of the clamped sum of
  the carried minimum and the row's squared norm, plus one, clamped at zero. One trip of the sweep at lane p: the
  minimum of the carried value and, over the chunk's 1024 rows j, of  ‖chunk_j‖² − 2 ⟨chunk_j, a_p⟩  (the product
  read as a sum over the 128 features; the roundings to bf16 are the identity here). After n trips the carried value
  at lane p is the minimum over the first 1024 n rows of the positive array; after all eight, over every row. So the
  entry is the kernel's per-row loss.
-/
import proofs.«177420_j30717606101531_2_alg».proof.Proof.KernelArray
import proofs.«177420_j30717606101531_2_alg».proof.Proof.LibMinReduce
import proofs.«177420_j30717606101531_2_alg».proof.Proof.LibRowwise
import proofs.«177420_j30717606101531_2_alg».proof.Proof.LibMatmul2d
import proofs.«177420_j30717606101531_2_alg».proof.Proof.Spec

set_option maxRecDepth 16384

noncomputable section

open Idealize.ShloMosaic Idealize.ShloMosaic.ValueIdx
open scoped BigOperators

namespace Cert.KernelIdeal.RowValue

open Cert.KernelIdeal Cert.KernelIdeal.Gen Cert.KernelIdeal.Body Cert.TripletSpec Cert.NearestMath

/-- The squared norm of row p of a tile, as the body computes it: a lane sum kept as a one-column matrix. -/
theorem rowSq_apply (x : FVec Ideal S1024x128 .f32) (hc : S1024x128.ShapeCasts S1024x128) (hr : S1024x128.Reduces [1] S1024)
    (hφ : FKind.Formats .f32) (hacc : (0x00000000#32 : BitVec 32) = FKind.add.neutral .f32 hφ) (hc2 : S1024.ShapeCasts S1024x1)
    (p : Fin 1024) (u : Fin 1) :
    shapeCast S1024x1 (multiReduction .add [1] S1024 (mulf (shapeCast S1024x128 x hc) (shapeCast S1024x128 x hc)) 0x00000000#32 hr hφ hacc) hc2 (ix2 p u)
      = ∑ k : Fin 128, x (ix2 p k) * x (ix2 p k) := by
  rw [shapeCast_self]
  exact (Cert.LibRowwise.shapeCast_a_a1_apply _ hc2 p u).trans (Cert.LibRowwise.rowSum_apply _ _ hr hφ hacc p)

/-- The squared difference of row p of two tiles. -/
theorem rowDiffSq_apply (x y : FVec Ideal S1024x128 .f32) (hc : S1024x128.ShapeCasts S1024x128) (hr : S1024x128.Reduces [1] S1024)
    (hφ : FKind.Formats .f32) (hacc : (0x00000000#32 : BitVec 32) = FKind.add.neutral .f32 hφ) (hc2 : S1024.ShapeCasts S1024x1)
    (p : Fin 1024) (u : Fin 1) :
    shapeCast S1024x1 (multiReduction .add [1] S1024
        (mulf (subf (shapeCast S1024x128 x hc) (shapeCast S1024x128 y hc)) (subf (shapeCast S1024x128 x hc) (shapeCast S1024x128 y hc)))
        0x00000000#32 hr hφ hacc) hc2 (ix2 p u)
      = ∑ k : Fin 128, (x (ix2 p k) - y (ix2 p k)) * (x (ix2 p k) - y (ix2 p k)) := by
  rw [shapeCast_self, shapeCast_self]
  exact (Cert.LibRowwise.shapeCast_a_a1_apply _ hc2 p u).trans (Cert.LibRowwise.rowSum_apply _ _ hr hφ hacc p)

/-- The body's closing arithmetic at entry p. -/
theorem pay4_apply (x0 x10 : Vec Ideal S1024x128 .f32) (v19 : FVec Ideal S1x1024 .f32) (p : Fin 1024) :
    k0_pay4 (F := Ideal) x0 x10 v19 (ix2 p (0 : Fin 1))
      = max ((Ideal.sqrt (∑ k : Fin 128, (x0 (ix2 p k) - x10 (ix2 p k)) * (x0 (ix2 p k) - x10 (ix2 p k)))
              - Ideal.sqrt (max (v19 (ix2 (0 : Fin 1) p) + ∑ k : Fin 128, x0 (ix2 p k) * x0 (ix2 p k)) (Ideal.ofBits .f32 0x00000000#32)))
            + Ideal.ofBits .f32 0x3F800000#32) (Ideal.ofBits .f32 0x00000000#32) := by
  unfold k0_pay4 k0_pay1
  dsimp only
  refine congrArg₂ max (congrArg₂ (fun a b : EReal => a + b) (congrArg₂ (fun a b : EReal => a - b) (congrArg Ideal.sqrt ?_) ?_) rfl) rfl
  · exact rowDiffSq_apply x0 x10 _ _ _ _ _ p 0
  · refine (transpose_ix2_apply _ _ p (0 : Fin 1)).trans (congrArg Ideal.sqrt (congrArg₂ max (congrArg₂ (fun a b : EReal => a + b) rfl ?_) rfl))
    exact (transpose_ix2_apply _ _ (0 : Fin 1) p).trans (rowSq_apply x0 _ _ _ _ _ p 0)

/-- One trip of the sweep at lane p. -/
theorem pay3_apply (x0 ch : Vec Ideal S1024x128 .f32) (acc : FVec Ideal S1x1024 .f32) (p : Fin 1024) :
    k0_pay3 (F := Ideal) x0 acc ch (ix2 (0 : Fin 1) p)
      = min (acc (ix2 (0 : Fin 1) p))
          ((Finset.univ : Finset (Fin 1024)).fold min (Ideal.ofBits .f32 0x7F800000#32) fun j =>
            (∑ k : Fin 128, ch (ix2 j k) * ch (ix2 j k))
              - Ideal.ofBits .f32 0x40000000#32 * ∑ k : Fin 128, ch (ix2 j k) * x0 (ix2 p k)) := by
  unfold k0_pay3 k0_pay1
  dsimp only
  refine congrArg₂ min rfl ?_
  refine (shapeCast_a_1a_apply _ _ (0 : Fin 1) p).trans ((Cert.LibMinReduce.colMin_apply _ _ _ _ _ p).trans ?_)
  refine congrArg (fun f => (Finset.univ : Finset (Fin 1024)).fold min (Ideal.ofBits .f32 0x7F800000#32) f) (funext fun j => ?_)
  refine congrArg₂ (fun a b : EReal => a - b) ?_ (congrArg₂ (fun a b : EReal => a * b) rfl ?_)
  · exact (Cert.LibRowwise.broadcastTo_a1_ab_apply _ _ j p).trans (rowSq_apply ch _ _ _ _ _ j 0)
  · rw [shapeCast_self, shapeCast_self]
    exact Cert.LibMatmul2d.matmul_transposedRhs_apply (M := 1024) (K := 128) (N := 1024) _ _ j p

/-- The candidate term of row q of the positive array for the anchor row in lane p of the tile. -/
def cand (x0 : Vec Ideal S1024x128 .f32) (P : Arr) (p : Fin 1024) (q : Fin 8192) : EReal :=
  (∑ k : Fin 128, P (ix2 q k) * P (ix2 q k)) - Ideal.ofBits .f32 0x40000000#32 * ∑ k : Fin 128, P (ix2 q k) * x0 (ix2 p k)

/-- After n trips the carried value at lane p is the minimum of the initial value and of the candidate terms of the
    first 1024 n rows of the positive array. -/
theorem sweep_apply (x0 : Vec Ideal S1024x128 .f32) (P : Arr) (init : FVec Ideal S1x1024 .f32) (p : Fin 1024) :
    ∀ n : ℕ, n ≤ 8 → sweep (F := Ideal) x0 P init n (ix2 (0 : Fin 1) p)
      = min (init (ix2 (0 : Fin 1) p)) ((Finset.univ.filter fun q : Fin 8192 => q.val < 1024 * n).inf (cand x0 P p))
  | 0, _ => by
    rw [inf_below_zero]
    exact (min_eq_left le_top).symm
  | n + 1, hn => by
    have hlt : n < k0_t1_loop.trips := by rw [trips_eq]; omega
    have hstep : sweep (F := Ideal) x0 P init (n + 1) (ix2 (0 : Fin 1) p)
        = min (sweep (F := Ideal) x0 P init n (ix2 (0 : Fin 1) p))
            ((Finset.univ : Finset (Fin 1024)).inf fun j => cand x0 P p ⟨1024 * n + j.val, by have := j.isLt; omega⟩) := by
      rw [show sweep (F := Ideal) x0 P init (n + 1) = k0_pay3 x0 (sweep x0 P init n) (chunk P ⟨n, hlt⟩) from dif_pos hlt]
      rw [pay3_apply, chunk_eq, Cert.LibFiniteDecode.ofBits_inf, fold_min_eq_inf]
      rfl
    rw [hstep, sweep_apply x0 P init p n (by omega), inf_below_succ (N := 8192) (B := 1024) n (by omega) (cand x0 P p), min_assoc]

/-- Entry p of the column that the point of tile T stores is the kernel's loss of row 1024 T + p. -/
theorem cell_eq (A P : Arr) (T : Fin 8) (p : Fin 1024) :
    cell (F := Ideal) A P T p = lossK A P ⟨1024 * T.val + p.val, by have := T.isLt; have := p.isLt; omega⟩ := by
  unfold cell lossK nearestK
  rw [pay4_apply, trips_eq, sweep_apply _ _ _ p 8 le_rfl, inf_below_all (N := 8192) (B := 1024) 8 rfl, Cert.LibFiniteDecode.ofBits_inf, fold_min_eq_inf]
  have h2 : (k0_pay2 (F := Ideal)) (ix2 (0 : Fin 1) p) = ⊤ := Cert.LibFiniteDecode.ofBits_inf
  rw [h2, min_eq_right le_top]
  rfl

/-- Entry r of the result column is the kernel's loss of row r. -/
theorem wholeColumn_apply (A P : Arr) (r : Fin 8192) (u : Fin 1) :
    wholeColumn (F := Ideal) A P (ix2 r u) = lossK A P r := by
  unfold wholeColumn
  rw [cell_eq]
  refine congrArg (lossK A P) (Fin.ext ?_)
  show 1024 * (r.val / 1024) + r.val % 1024 = r.val
  omega

end Cert.KernelIdeal.RowValue

end
-- ==== Proof.ReferenceValue.lean ====
/-
  The reference's per-row loss, read off its run one operation at a time.

  With A the argument's first 8192 rows and P its last 8192 rows: the norm of a_r − p_r is the root of a row sum
  started from the zero word; the Gram form of the squared distance adds the two squared norms (each a row sum from
  the zero word), broadcast along a column and along a row, and subtracts twice the product A Pᵀ (the transpose and
  the contraction read as Σ_k a_rk p_jk); the clamp, the root and the minimum over the last axis from +∞ follow; then
  the difference, the margin and the clamp at zero.
-/
import proofs.«177420_j30717606101531_2_alg».proof.Proof.Gen.ReferenceIdeal.Read
import proofs.«177420_j30717606101531_2_alg».proof.Proof.LibMinReduce
import proofs.«177420_j30717606101531_2_alg».proof.Proof.Spec

set_option maxRecDepth 16384

noncomputable section

open Idealize.ShloMosaic Idealize.ShloMosaic.ValueIdx
open scoped BigOperators

namespace Cert.ReferenceIdeal.RowValue

open Cert.ReferenceIdeal Cert.ReferenceIdeal.Gen Cert.ReferenceIdeal.Read Cert.TripletSpec

variable (x0 : (⟨S16384x128, .f32⟩ : BufTy).Contents (Elt Ideal))

/-- The anchor rows and the positive rows of the argument. -/
abbrev anchor : Arr := val_main_v0 (F := Ideal) x0
abbrev positive : Arr := val_main_v1 (F := Ideal) x0

/-- ‖a_r − p_r‖² from the zero word. -/
theorem diffSq_read (r : Fin 8192) :
    val_main_call0_v1 (F := Ideal) x0 (ix1 r) = Ideal.ofBits .f32 0x00000000#32 + diffSq (anchor x0) (positive x0) r := by
  rw [val_main_call0_v1_apply]
  refine congrArg₂ (fun a b : EReal => a + b) rfl (Finset.sum_congr rfl fun k _ => ?_)
  have e : idx_main_call0_v1 (ix1 r) k = ix2 r k := funext fun a => by match a with | ⟨0, _⟩ => rfl | ⟨1, _⟩ => rfl
  rw [e]; rfl

/-- ‖a_r‖² from the zero word. -/
theorem sqA_read (r : Fin 8192) :
    val_main_v5 (F := Ideal) x0 (ix1 r) = Ideal.ofBits .f32 0x00000000#32 + sqNorm (anchor x0) r := by
  rw [val_main_v5_apply]
  refine congrArg₂ (fun a b : EReal => a + b) rfl (Finset.sum_congr rfl fun k _ => ?_)
  have e : idx_main_v5 (ix1 r) k = ix2 r k := funext fun a => by match a with | ⟨0, _⟩ => rfl | ⟨1, _⟩ => rfl
  rw [e]; rfl

/-- ‖p_j‖² from the zero word. -/
theorem sqP_read (j : Fin 8192) :
    val_main_v7 (F := Ideal) x0 (ix1 j) = Ideal.ofBits .f32 0x00000000#32 + sqNorm (positive x0) j := by
  rw [val_main_v7_apply]
  refine congrArg₂ (fun a b : EReal => a + b) rfl (Finset.sum_congr rfl fun k _ => ?_)
  have e : idx_main_v7 (ix1 j) k = ix2 j k := funext fun a => by match a with | ⟨0, _⟩ => rfl | ⟨1, _⟩ => rfl
  rw [e]; rfl

/-- ⟨a_r, p_j⟩: the product with the transposed positive rows. -/
theorem dot_read (r j : Fin 8192) :
    val_main_v9 (F := Ideal) x0 (ix2 r j) = ∑ k : Fin 128, anchor x0 (ix2 r k) * positive x0 (ix2 j k) := by
  rw [val_main_v9_apply]
  refine Finset.sum_congr rfl fun k _ => ?_
  have el : lidx_main_v9 (ix2 r j) k = ix2 r k := funext fun a => by match a with | ⟨0, _⟩ => rfl | ⟨1, _⟩ => rfl
  have er : idx_main_v8 (ridx_main_v9 (ix2 r j) k) = ix2 j k := funext fun a => by match a with | ⟨0, _⟩ => rfl | ⟨1, _⟩ => rfl
  rw [el, val_main_v8_apply, er]

/-- The clamped root of the Gram-form squared distance at (r, j). -/
theorem dist_read (r j : Fin 8192) :
    val_main_v20 (F := Ideal) x0 (ix2 r j)
      = Ideal.sqrt (max (fullSq (anchor x0) (positive x0) r j) (Ideal.ofBits .f32 0x00000000#32)) := by
  have e12 : idx_main_v10 (idx_main_v12 (ix2 r j)) = ix1 r := funext fun a => by match a with | ⟨0, _⟩ => rfl
  have e13 : idx_main_v11 (idx_main_v13 (ix2 r j)) = ix1 j := funext fun a => by match a with | ⟨0, _⟩ => rfl
  rw [val_main_v20_apply, val_main_v19_apply, val_main_v17_apply, val_main_v14_apply, val_main_v16_apply,
    val_main_v12_apply, val_main_v10_apply, val_main_v13_apply, val_main_v11_apply, val_main_v15_apply, val_main_v18_apply,
    e12, e13, sqA_read, sqP_read, dot_read]
  rfl

/-- The nearest-candidate distance of row r: the minimum over the last axis from +∞. -/
theorem nearest_read (r : Fin 8192) :
    val_main_v21 (F := Ideal) x0 (ix1 r) = nearestR (anchor x0) (positive x0) r := by
  unfold val_main_v21 nearestR
  refine (Cert.LibMinReduce.hostRowMin_apply _ _ reducesTo_S8192x8192_S8192_d1 (by decide) h_S_ r).trans ?_
  exact congrArg (fun f => (Finset.univ : Finset (Fin 8192)).fold min (Ideal.ofBits .f32 0x7F800000#32) f)
    (funext fun j => dist_read x0 r j)

/-- The loss of row r. -/
theorem loss_read (r : Fin 8192) :
    val_main_v25 (F := Ideal) x0 (ix1 r) = lossR (anchor x0) (positive x0) r := by
  rw [val_main_v25_apply, val_main_v24_apply, val_main_v22_apply, val_main_v3_apply, diffSq_read, nearest_read,
    val_main_v23_apply, val_main_call1_v0_apply]
  rfl

end Cert.ReferenceIdeal.RowValue

end
-- ==== Proof.Bridge.lean ====
/-
  The two programs' results are one number.

  The kernel's program sums its result column (8192 × 1) over all entries from the zero word and divides by the word
  of 8192; the reference sums its loss vector (8192) from the zero word and divides by the same word. Entry r of the
  column is the kernel's loss of row r, entry r of the vector the reference's; on an argument of reals the two losses
  agree (the clamp-and-root moved across the minimum), and both totals are sums over r of the same terms. The
  argument's entries are reals by the precondition: its one conjunct says every |x| is below +∞.
-/
import proofs.«177420_j30717606101531_2_alg».proof.Proof.KernelValue
import proofs.«177420_j30717606101531_2_alg».proof.Proof.ReferenceValue
import proofs.«177420_j30717606101531_2_alg».proof.Proof.Gen.Pre_finite_inputs

set_option maxRecDepth 16384

noncomputable section

open Idealize.ShloMosaic Idealize.ShloMosaic.ValueIdx
open scoped BigOperators

namespace Cert.Bridge

open Cert.TripletSpec

/-- A rank-1 index set is its one coordinate's range, so a sum over it is the sum over the coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The precondition's one conjunct makes every entry of the argument a real. -/
theorem real_of_pre (x : FVec Ideal Cert.Pre_finite_inputs.S16384x128 .f32)
    (h : Cert.Pre_finite_inputs.fn (F := Ideal) x = fun _ => 1#1) (i : Cert.Pre_finite_inputs.S16384x128.Idx) :
    ∃ r : ℝ, x i = ((r : ℝ) : EReal) := by
  have h0 := congrFun h ix0
  dsimp only [Cert.Pre_finite_inputs.fn] at h0
  exact Cert.LibFiniteDecode.real_of_all x Cert.Pre_finite_inputs.Gen.bcast_S_S16384x128
    Cert.Pre_finite_inputs.Gen.reducesTo_S16384x128_S_d0_1 Cert.Pre_finite_inputs.Gen.h_S_ h0 i

/-- The kernel's program's mean at its one index: the total from the zero word over the word of 8192. -/
theorem meanOf_apply (Y : Cert.KernelIdeal.S8192x1.Idx → EReal) (i : Cert.KernelIdeal.S_.Idx) :
    Cert.KernelIdeal.Body.meanOf (F := Ideal) Y i
      = FloatOps.hostDivf (F := Ideal) (φ := .f32) (Ideal.ofBits .f32 0x00000000#32 + ∑ j : Cert.KernelIdeal.S8192x1.Idx, Y j) (Ideal.ofBits .f32 0x46000000#32) := by
  unfold Cert.KernelIdeal.Body.meanOf
  refine congrArg₂ (FloatOps.hostDivf (F := Ideal) (φ := .f32)) ?_ rfl
  simp only [Host.reduceAdd, Ideal.hostReduceAdd_def]
  exact Ideal.hostReduceAdd_total _ (fun b => b.elim0) Y _ i

/-- On an argument of reals the reference's result is the kernel's program's result of the same argument. -/
theorem result_eq (x0 : (⟨Cert.ReferenceIdeal.S16384x128, .f32⟩ : BufTy).Contents (Elt Ideal))
    (hx : ∀ i, ∃ r : ℝ, x0 i = ((r : ℝ) : EReal)) :
    Cert.ReferenceIdeal.Read.val_main_v27 (F := Ideal) x0
      = Cert.KernelIdeal.Body.meanOf (F := Ideal) (Cert.KernelIdeal.Body.wholeColumn (F := Ideal)
          (Cert.ReferenceIdeal.Read.val_main_v0 (F := Ideal) x0) (Cert.ReferenceIdeal.Read.val_main_v1 (F := Ideal) x0)) := by
  have hA : ∀ i, ∃ r : ℝ, Cert.ReferenceIdeal.RowValue.anchor x0 i = ((r : ℝ) : EReal) := fun i => by
    show ∃ r : ℝ, Cert.ReferenceIdeal.Read.val_main_v0 (F := Ideal) x0 i = _
    rw [Cert.ReferenceIdeal.Read.val_main_v0_apply]; exact hx _
  have hP : ∀ i, ∃ r : ℝ, Cert.ReferenceIdeal.RowValue.positive x0 i = ((r : ℝ) : EReal) := fun i => by
    show ∃ r : ℝ, Cert.ReferenceIdeal.Read.val_main_v1 (F := Ideal) x0 i = _
    rw [Cert.ReferenceIdeal.Read.val_main_v1_apply]; exact hx _
  funext i
  rw [meanOf_apply, Cert.ReferenceIdeal.Read.val_main_v27_apply, Cert.ReferenceIdeal.Read.val_main_v26_apply]
  refine congrArg₂ (FloatOps.hostDivf (F := Ideal) (φ := .f32)) (congrArg₂ (fun a b : EReal => a + b) rfl ?_) rfl
  rw [sum_idx1, sum_idx2]
  refine Finset.sum_congr rfl fun r _ => ?_
  rw [Fin.sum_univ_one, Cert.KernelIdeal.RowValue.wholeColumn_apply, Cert.ReferenceIdeal.RowValue.loss_read]
  exact (loss_eq _ _ hA hP r).symm

end Cert.Bridge

end
-- ==== Proof.lean ====
/-
  A triplet loss with the hardest in-batch negative: the mean over 8192 anchor rows of
      max( ‖a_r − p_r‖ − min_j ‖a_r − p_j‖ + 1, 0 ),
  computed by a tiled kernel that never forms the 8192 × 8192 distance matrix, against the plain formula.

  The kernel keeps, per anchor row, a running minimum over the positive rows of  ‖p_j‖² − 2 ⟨p_j, a_r⟩  (chunk by
  chunk, from +∞), adds ‖a_r‖² once, clamps at zero and takes one root; the reference clamps and takes the root of
  (‖a_r‖² + ‖p_j‖²) − 2 ⟨a_r, p_j⟩  for every pair and then the minimum. On the extended reals the clamp-and-root is
  monotone and fixes +∞, so it commutes with the minimum, and on real inputs the two groupings of the squared
  distance are the same real; every other step (row sums, the contraction, the margin, the mean) is the same
  operation on both sides. The precondition makes every input entry a real.

  The three programs' runs come from their generated run theorems; the kernel's stored column is read off its
  run one grid point at a time (eight row blocks that tile the result), the reference's operations one at a time.
-/
import proofs.«177420_j30717606101531_2_alg».proof.Defs
import proofs.«177420_j30717606101531_2_alg».proof.Proof.Gen.Kernel
import proofs.«177420_j30717606101531_2_alg».proof.Proof.Gen.Kernel.Frame
import proofs.«177420_j30717606101531_2_alg».proof.Proof.Gen.KernelIdeal
import proofs.«177420_j30717606101531_2_alg».proof.Proof.Gen.KernelIdeal.Frame
import proofs.«177420_j30717606101531_2_alg».proof.Proof.Gen.ReferenceIdeal
import proofs.«177420_j30717606101531_2_alg».proof.Proof.Gen.Pre_finite_inputs
import proofs.«177420_j30717606101531_2_alg».proof.Proof.Gen.ReferenceIdeal.Run
import proofs.«177420_j30717606101531_2_alg».proof.Proof.Gen.ReferenceIdeal.Read
import proofs.«177420_j30717606101531_2_alg».proof.Proof.Bridge
import Idealize.ShloMosaic.Adequacy
import Idealize.ShloMosaic.Init

noncomputable section

namespace Cert.Proof

open Idealize.ShloMosaic Idealize.SL.Sem

/-- The kernel's program as printed runs and leaves its argument as it was. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its argument as it was: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the argument both programs end with the same mean loss: the kernel's program at the
    mean of its stored column, the reference at the mean of its loss vector, equal entry by entry on an argument
    of reals. -/
theorem algebraic : Cert.algebraic_KernelIdeal_ReferenceIdeal := by
  intro m ρ m' ρ' hpre hagree
  refine ⟨_, Cert.KernelIdeal.Body.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, hagree c]
  exact Cert.Bridge.result_eq _ (Cert.Bridge.real_of_pre _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
